-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S50000x128 .f32) (main_arg1 : IVec S2x800000 32) (main_arg2 : FVec F S128x128 .f32) (main_arg3 : FVec F S128 .f32) (main_arg4 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S5000x128 : Shape := ⟨2, ![5000, 128]⟩

abbrev nBuf : Space → Nat
  | .hbm => 38
  | .vmem => 9
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S128x128, .f32⟩
  | .hbm, ⟨35, _⟩ => ⟨S128x128, .f32⟩
  | .hbm, ⟨36, _⟩ => ⟨S1x128, .f32⟩
  | .hbm, ⟨37, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 42
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S128x128, .f32⟩
  | .hbm, ⟨35, _⟩ => ⟨S50000x128, .f32⟩
  | .hbm, ⟨36, _⟩ => ⟨S1x128, .f32⟩
  | .hbm, ⟨37, _⟩ => ⟨S50000x128, .f32⟩
  | .hbm, ⟨38, _⟩ => ⟨S50000x128, .f32⟩
  | .hbm, ⟨39, _⟩ => ⟨S128x128, .f32⟩
  | .hbm, ⟨40, _⟩ => ⟨S50000x128, .f32⟩
  | .hbm, ⟨41, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.SageCombine.lean ====
/-
  The last step of a mean-aggregation graph layer, as ONE function of whole arrays over the extended reals.

  For node `r` and output feature `j`, with `a` the neighbourhood means (one row of 128 features per node), `x` the
  nodes' own features, `wl` and `wr` the two weight matrices already laid out as [input feature, output feature],
  and `b` the bias vector:

      out r j  =  (∑ₖ a r k · wl k j  +  ∑ₖ x r k · wr k j)  +  b j .

  Every row of the result depends on the same row of `a` and of `x` only, so any tiling of the rows computes it block
  by block. The two programs compared differ only in where the bias is added: one adds it last, as above, the other
  adds it to the first product before the second product is added. On the extended reals addition is commutative
  and associative everywhere — the sum of `+∞` and `-∞` is `-∞` whichever way it is grouped — so the two groupings
  agree with no finiteness assumption (`combine_bias_first`).
-/
import Idealize.ShloMosaic.PureOps.Ideal
import Idealize.ShloMosaic.Lib.ValueIdx

noncomputable section

open scoped BigOperators

namespace Cert.Sage

open Idealize.ShloMosaic Idealize.ShloMosaic.ValueIdx

/-- Row `r` of a [rows, 128] array against column `j` of a [128, 128] matrix: the contraction over the 128 input
    features. Stated for any number of rows, so that it reads a whole array and a block of its rows alike. -/
def rowDot {n : Nat} (a : (⟨2, ![n, 128]⟩ : Shape).Idx → EReal) (w : (⟨2, ![128, 128]⟩ : Shape).Idx → EReal)
    (r : Fin n) (j : Fin 128) : EReal :=
  ∑ k : Fin 128, a (ix2 r k) * w (ix2 k j)

/-- The contraction reads one row of the array and one column of the matrix: two arrays that agree on those give the
    same value, whatever their other rows hold (and however many rows they have). -/
theorem rowDot_congr {n n' : Nat} (a : (⟨2, ![n, 128]⟩ : Shape).Idx → EReal) (a' : (⟨2, ![n', 128]⟩ : Shape).Idx → EReal)
    (w w' : (⟨2, ![128, 128]⟩ : Shape).Idx → EReal) (r : Fin n) (r' : Fin n') (j : Fin 128)
    (ha : ∀ k : Fin 128, a (ix2 r k) = a' (ix2 r' k)) (hw : ∀ k : Fin 128, w (ix2 k j) = w' (ix2 k j)) :
    rowDot a w r j = rowDot a' w' r' j :=
  Finset.sum_congr rfl fun k _ => by rw [ha k, hw k]

/-- The layer's output: neighbour term plus root term, then the bias. -/
def combine (a x : (⟨2, ![50000, 128]⟩ : Shape).Idx → EReal) (wl wr : (⟨2, ![128, 128]⟩ : Shape).Idx → EReal)
    (b : (⟨1, ![128]⟩ : Shape).Idx → EReal) : (⟨2, ![50000, 128]⟩ : Shape).Idx → EReal :=
  fun i => (rowDot a wl (i 0) (i 1) + rowDot x wr (i 0) (i 1)) + b (ix1 (i 1))

/-- Adding the bias to the neighbour term first, and the root term last, gives the same entry: addition of extended
    reals is commutative and associative. -/
theorem combine_bias_first (a x : (⟨2, ![50000, 128]⟩ : Shape).Idx → EReal) (wl wr : (⟨2, ![128, 128]⟩ : Shape).Idx → EReal)
    (b : (⟨1, ![128]⟩ : Shape).Idx → EReal) (i : (⟨2, ![50000, 128]⟩ : Shape).Idx) :
    (rowDot a wl (i 0) (i 1) + b (ix1 (i 1))) + rowDot x wr (i 0) (i 1) = combine a x wl wr b i :=
  add_right_comm _ _ _

end Cert.Sage

end
-- ==== Proof.BlockEntry.lean ====
/-
  One entry of the block a grid point computes.

  At a grid point the body holds a block of 5000 rows of the neighbourhood means (`v0`) and the same 5000 rows of the
  nodes' features (`v3`), both weight matrices whole (`v5`, `v8`) and the bias as one row of 128 (`v14`). It narrows the
  four matrix operands to a shorter float format — on the extended reals a change of format is the identity —,
  multiplies each row block by its weight matrix into an accumulator of zeros, adds the two products, and adds the bias
  row broadcast down the 5000 rows. So the entry at row `p`, column `q` of the block is

      (∑ₖ v0 p k · v5 k q  +  ∑ₖ v3 p k · v8 k q)  +  v14 0 q ,

  the two contractions running over the 128 input features (`entry_apply`).
-/
import proofs.«168548_j87703232184757_1_alg».proof.Proof.Gen.KernelIdeal.Skeleton
import proofs.«168548_j87703232184757_1_alg».proof.Proof.SageCombine
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BlockEntry

open Cert.KernelIdeal Cert.KernelIdeal.Gen Idealize.ShloMosaic Idealize.ShloMosaic.ValueIdx Cert.Sage

/-- The left operand is read in the output's row: its first coordinate is the output's, whatever the contraction
    coordinate. -/
theorem lhs_row (i : S5000x128.Idx) (κ : dot_S5000x128_S128x128_S5000x128_1_0_0_1_n_n.contr.Idx) :
    (dot_S5000x128_S128x128_S5000x128_1_0_0_1_n_n.lhsIdx i κ 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- The right operand is read in the output's column: its second coordinate is the output's. -/
theorem rhs_col (i : S5000x128.Idx) (κ : dot_S5000x128_S128x128_S5000x128_1_0_0_1_n_n.contr.Idx) :
    (dot_S5000x128_S128x128_S5000x128_1_0_0_1_n_n.rhsIdx i κ 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The contraction's left operand index at output `(p, q)` and contraction coordinate `k` is `(p, k)`. -/
theorem lhs_at (p : Fin 5000) (q : Fin 128) (k : Fin 128) :
    dot_S5000x128_S128x128_S5000x128_1_0_0_1_n_n.lhsIdx (ix2 p q)
      ((contrEquiv1 dot_S5000x128_S128x128_S5000x128_1_0_0_1_n_n 128 rfl rfl).symm k) = ix2 p k := by
  have hk := contrEquiv1_symm_val dot_S5000x128_S128x128_S5000x128_1_0_0_1_n_n 128 rfl rfl k
  refine funext fun a => Fin.ext ?_
  match a with
  | ⟨0, _⟩ => exact lhs_row _ _
  | ⟨1, _⟩ => exact (dot_S5000x128_S128x128_S5000x128_1_0_0_1_n_n.lhsIdx_val_of_single rfl _ _).trans hk

/-- The contraction's right operand index there is `(k, q)`. -/
theorem rhs_at (p : Fin 5000) (q : Fin 128) (k : Fin 128) :
    dot_S5000x128_S128x128_S5000x128_1_0_0_1_n_n.rhsIdx (ix2 p q)
      ((contrEquiv1 dot_S5000x128_S128x128_S5000x128_1_0_0_1_n_n 128 rfl rfl).symm k) = ix2 k q := by
  have hk := contrEquiv1_symm_val dot_S5000x128_S128x128_S5000x128_1_0_0_1_n_n 128 rfl rfl k
  refine funext fun a => Fin.ext ?_
  match a with
  | ⟨0, _⟩ => exact (dot_S5000x128_S128x128_S5000x128_1_0_0_1_n_n.rhsIdx_val_of_single rfl _ _).trans hk
  | ⟨1, _⟩ => exact rhs_col _ _

/-- A row block times a weight matrix, accumulated into zeros, read at `(p, q)`: row `p` of the block against column
    `q` of the matrix. The accumulator's zero word is the extended real `0`, and the contraction's one-axis index is
    its coordinate. -/
theorem product_apply (l : FVec Ideal S5000x128 .bf16) (r : FVec Ideal S128x128 .bf16) (p : Fin 5000) (q : Fin 128) :
    matmul (F := Ideal) dot_S5000x128_S128x128_S5000x128_1_0_0_1_n_n none l r
        (constant (F := Ideal) S5000x128 .f32 0x00000000#32) (ix2 p q) = rowDot l r p q := by
  unfold rowDot
  refine (Ideal.matmul_constant_zero_apply dot_S5000x128_S128x128_S5000x128_1_0_0_1_n_n none l r (ix2 p q)).trans ?_
  rw [← Equiv.sum_comp (contrEquiv1 dot_S5000x128_S128x128_S5000x128_1_0_0_1_n_n 128 rfl rfl).symm]
  refine Finset.sum_congr rfl fun k _ => ?_
  rw [lhs_at p q k, rhs_at p q k]

/-- THE BLOCK'S ENTRY at row `p`, column `q`: the two row-by-column contractions added, then the bias at `q`. -/
theorem entry_apply (v0 v3 : FVec Ideal S5000x128 .f32) (v5 v8 : FVec Ideal S128x128 .f32) (v14 : FVec Ideal S1x128 .f32)
    (p : Fin 5000) (q : Fin 128) :
    k0_pay1 (F := Ideal) v0 v3 v5 v8 v14 (ix2 p q)
      = (rowDot v0 v5 p q + rowDot v3 v8 p q) + v14 (ix2 (0 : Fin 1) q) := by
  unfold k0_pay1
  simp only [shapeCast_self]
  refine (addf_apply _ _ (ix2 p q)).trans ?_
  refine congrArg₂ (· + ·) ((addf_apply _ _ (ix2 p q)).trans (congrArg₂ (· + ·) ?_ ?_)) ?_
  · exact product_apply _ _ p q
  · exact product_apply _ _ p q
  · exact broadcastTo_1b_ab_apply v14 broadcasts_S1x128_S5000x128 p q

/-- THE BLOCK'S ENTRY AS AN ENTRY OF THE LAYER'S OUTPUT. If row `p` of the two row blocks is row `r` of two whole arrays
    `A` and `X`, and the weight blocks and the bias block agree with whole arrays `WL`, `WR`, `B` on column `q`, then the
    block's entry `(p, q)` is the layer's output of the whole arrays at `(r, q)`: an entry of the output depends on its own
    row of `A` and `X` and its own column of the weights and the bias, and on nothing else. -/
theorem entry_of_blocks (A X : (⟨2, ![50000, 128]⟩ : Shape).Idx → EReal) (WL WR : (⟨2, ![128, 128]⟩ : Shape).Idx → EReal)
    (B : (⟨2, ![1, 128]⟩ : Shape).Idx → EReal)
    (a x : FVec Ideal S5000x128 .f32) (wl wr : FVec Ideal S128x128 .f32) (b : FVec Ideal S1x128 .f32)
    (p : Fin 5000) (q : Fin 128) (r : Fin 50000)
    (ha : ∀ k : Fin 128, a (ix2 p k) = A (ix2 r k)) (hx : ∀ k : Fin 128, x (ix2 p k) = X (ix2 r k))
    (hwl : ∀ k : Fin 128, wl (ix2 k q) = WL (ix2 k q)) (hwr : ∀ k : Fin 128, wr (ix2 k q) = WR (ix2 k q))
    (hb : b (ix2 (0 : Fin 1) q) = B (ix2 (0 : Fin 1) q)) :
    k0_pay1 (F := Ideal) a x wl wr b (ix2 p q)
      = combine A X WL WR (fun j => B (ix2 (0 : Fin 1) (j 0))) (ix2 r q) := by
  refine (entry_apply a x wl wr b p q).trans ?_
  show _ = (rowDot A WL r q + rowDot X WR r q) + B (ix2 (0 : Fin 1) q)
  rw [hb]
  refine congrArg₂ (· + ·) (congrArg₂ (· + ·) ?_ ?_) rfl
  · exact rowDot_congr _ _ _ _ p r q ha hwl
  · exact rowDot_congr _ _ _ _ p r q hx hwr

end Cert.KernelIdeal.BlockEntry

end
-- ==== Proof.BlockRows.lean ====
/-
  Which entries of an array a grid point's blocks are.

  The grid has ten points. At point `t` the two row-blocked inputs and the output are at block row `t`: entry `(p, k)`
  of the block is entry `(5000·t + p, k)` of the array. The two weight matrices and the bias row have one block, the
  whole array: entry `(k, q)` of the block is entry `(k, q)` of the array. Each fact is stated for ANY contents `A` of the
  array, so that nothing here depends on what the arrays hold.
-/
import proofs.«168548_j87703232184757_1_alg».proof.Proof.Gen.KernelIdeal.Frame
import Idealize.ShloMosaic.Lib.Pipeline.Value
import Idealize.ShloMosaic.Lib.ValueIdx

noncomputable section

namespace Cert.KernelIdeal.BlockRows

open Cert.KernelIdeal Cert.KernelIdeal.Gen Idealize.ShloMosaic Idealize.ShloMosaic.TcCoe Idealize.SL.Sem
open Idealize.ShloMosaic.ValueIdx

/-- Where each window's block sits at point `t`: the two row-blocked inputs and the output at block row `t`, the
    weights and the bias at their one block (decided over the ten points). -/
theorem block_positions : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of point `t`'s block of the first input is row `5000·t + p` of its array. -/
theorem rows_of_means (A : S50000x128.Idx → EReal) (t : Fin cfg0.N) (p : Fin 5000) (k : Fin 128) (r : Fin 50000)
    (hr : r.val = 5000 * t.val + p.val) :
    ((cfg0.win 0).blk t).view.read (Elt Ideal) A (ix2 p k) = A (ix2 r k) := by
  obtain ⟨e0, e1, -⟩ := block_positions t
  rw [View.read_apply]
  show A _ = A _
  refine congrArg A (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- Row `p` of point `t`'s block of the second input is row `5000·t + p` of its array. -/
theorem rows_of_features (A : S50000x128.Idx → EReal) (t : Fin cfg0.N) (p : Fin 5000) (k : Fin 128) (r : Fin 50000)
    (hr : r.val = 5000 * t.val + p.val) :
    ((cfg0.win 1).blk t).view.read (Elt Ideal) A (ix2 p k) = A (ix2 r k) := by
  obtain ⟨-, -, e0, e1, -⟩ := block_positions t
  rw [View.read_apply]
  show A _ = A _
  refine congrArg A (funext fun a => Fin.ext ?_)
  match a with
  | ⟨0, _⟩ => show win0_1.index t (0 : Fin 2) * 5000 + 1 * p.val = r.val; omega
  | ⟨1, _⟩ => show win0_1.index t (1 : Fin 2) * 128 + 1 * k.val = k.val; omega

/-- The neighbour weights' one block is the whole matrix. -/
theorem all_of_neighbour_weights (A : S128x128.Idx → EReal) (t : Fin cfg0.N) (k q : Fin 128) :
    ((cfg0.win 2).blk t).view.read (Elt Ideal) A (ix2 k q) = A (ix2 k q) := by
  obtain ⟨-, -, -, -, e0, e1, -⟩ := block_positions t
  rw [View.read_apply]
  show A _ = A _
  refine congrArg A (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

/-- The bias row's one block is the whole row. -/
theorem all_of_bias (A : S1x128.Idx → EReal) (t : Fin cfg0.N) (q : Fin 128) :
    ((cfg0.win 3).blk t).view.read (Elt Ideal) A (ix2 (0 : Fin 1) q) = A (ix2 (0 : Fin 1) q) := by
  obtain ⟨-, -, -, -, -, -, e0, e1, -⟩ := block_positions t
  rw [View.read_apply]
  show A _ = A _
  refine congrArg A (funext fun a => Fin.ext ?_)
  match a with
  | ⟨0, _⟩ => show win0_3.index t (0 : Fin 2) * 1 + 1 * 0 = 0; omega
  | ⟨1, _⟩ => show win0_3.index t (1 : Fin 2) * 128 + 1 * q.val = q.val; omega

/-- The root weights' one block is the whole matrix. -/
theorem all_of_root_weights (A : S128x128.Idx → EReal) (t : Fin cfg0.N) (k q : Fin 128) :
    ((cfg0.win 4).blk t).view.read (Elt Ideal) A (ix2 k q) = A (ix2 k q) := by
  obtain ⟨-, -, -, -, -, -, -, -, e0, e1, -⟩ := block_positions t
  rw [View.read_apply]
  show A _ = A _
  refine congrArg A (funext fun a => Fin.ext ?_)
  match a with
  | ⟨0, _⟩ => show win0_4.index t (0 : Fin 2) * 128 + 1 * k.val = k.val; omega
  | ⟨1, _⟩ => show win0_4.index t (1 : Fin 2) * 128 + 1 * q.val = q.val; omega

/-- Entry `(p, q)` of point `t`'s output block is entry `(5000·t + p, q)` of the result array. -/
theorem output_block_index (t : Fin cfg0.N) (p : Fin 5000) (q : Fin 128) (r : Fin 50000) (hr : r.val = 5000 * t.val + p.val) :
    ((cfg0.win 5).blk t).view.emb (ix2 p q) = (ix2 r q : S50000x128.Idx) := by
  obtain ⟨-, -, -, -, -, -, -, -, -, -, e0, e1⟩ := block_positions t
  refine funext fun a => Fin.ext ?_
  match a with
  | ⟨0, _⟩ => show win0_5.index t (0 : Fin 2) * 5000 + 1 * p.val = r.val; omega
  | ⟨1, _⟩ => show win0_5.index t (1 : Fin 2) * 128 + 1 * q.val = q.val; omega

/-- WHAT A POINT WRITES BACK, AS A BLOCK OF AN ARRAY. If the staged block `W` agrees, entry `(p, q)` against entry
    `(5000·t + p, q)`, with an array `G`, then what point `t` writes back — the staged block, the window being uncut — is
    block `t` of `G`. -/
theorem written_back_eq (W : S5000x128.Idx → EReal) (G : S50000x128.Idx → EReal) (t : Fin cfg0.N)
    (h : ∀ (p : Fin 5000) (q : Fin 128) (r : Fin 50000), r.val = 5000 * t.val + p.val → W (ix2 p q) = G (ix2 r q)) :
    (cfg0.win 5).cut (grid0.coords t) W = ((cfg0.win 5).blk t).view.read (Elt Ideal) G := by
  have hN : cfg0.N = 10 := N_0
  have ht : t.val < 10 := hN ▸ t.isLt
  refine funext fun (j : S5000x128.Idx) => ?_
  obtain ⟨p, q, rfl⟩ : ∃ (p : Fin 5000) (q : Fin 128), j = ix2 p q := ⟨j 0, j 1, eq_ix2 j⟩
  obtain ⟨r, hr⟩ : ∃ r : Fin 50000, r.val = 5000 * t.val + p.val := ⟨⟨5000 * t.val + p.val, by have := p.isLt; omega⟩, rfl⟩
  rw [View.read_apply, output_block_index t p q r hr]
  show W (ix2 p q) = G (ix2 r q)
  exact h p q r hr

end Cert.KernelIdeal.BlockRows

end
-- ==== Proof.ResultArray.lean ====
/-
  From the blocks the grid points write to the whole result array.

  The grid has ten points. Point `t` reads rows `5000·t … 5000·t + 4999` of the neighbourhood means and of the nodes'
  features, reads the two weight matrices and the bias row whole, and writes back rows `5000·t … 5000·t + 4999` of the
  result. Row `p` of its block is row `5000·t + p` of the arrays, and an entry of the layer's output depends on its own
  row only, so what point `t` writes back is exactly block `t` of the layer's output computed on the whole arrays
  (`written_block`). The ten blocks tile the 50000 rows — row `r` lies in the block of point `r / 5000` (`rows_covered`) —
  so after the run the result array is the layer's output of the arrays the region was entered with (`result_array`,
  `run`).
-/
import proofs.«168548_j87703232184757_1_alg».proof.Proof.Gen.KernelIdeal.Value
import proofs.«168548_j87703232184757_1_alg».proof.Proof.BlockEntry
import proofs.«168548_j87703232184757_1_alg».proof.Proof.BlockRows
import proofs.«168548_j87703232184757_1_alg».proof.Proof.SageCombine
import Idealize.ShloMosaic.Lib.Pipeline.Value
import Idealize.ShloMosaic.Lib.ValueIdx

noncomputable section

open scoped BigOperators

namespace Cert.KernelIdeal.ResultArray

open Cert.KernelIdeal Cert.KernelIdeal.Gen Idealize.ShloMosaic Idealize.ShloMosaic.TcCoe Idealize.SL.Sem
open Idealize.ShloMosaic.ValueIdx Cert.Sage Cert.KernelIdeal.BlockRows
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The layer's output of the five arrays as the region finds them: the means, the features, the two weight matrices
    and the bias (a [1, 128] array, read along its one row). -/
abbrev layerOutput (c : Dev nD) : S50000x128.Idx → EReal :=
  combine (V m c main_v22) (V m c main_arg0) (V m c main_v23) (V m c main_v24) (fun j => V m c main_v25 (ix2 (0 : Fin 1) (j 0)))

/-- Row `p` of point `t`'s block of the means is row `5000·t + p` of the means. -/
theorem means_block (c : Dev nD) (t : Fin cfg0.N) (p : Fin 5000) (k : Fin 128) (r : Fin 50000) (hr : r.val = 5000 * t.val + p.val) :
    (iblk m c 0 t : Vec Ideal S5000x128 .f32) (ix2 p k) = (V m c main_v22 : S50000x128.Idx → EReal) (ix2 r k) := by
  unfold iblk
  exact rows_of_means (V m c main_v22) t p k r hr

/-- Row `p` of point `t`'s block of the features is row `5000·t + p` of the features. -/
theorem features_block (c : Dev nD) (t : Fin cfg0.N) (p : Fin 5000) (k : Fin 128) (r : Fin 50000) (hr : r.val = 5000 * t.val + p.val) :
    (iblk m c 1 t : Vec Ideal S5000x128 .f32) (ix2 p k) = (V m c main_arg0 : S50000x128.Idx → EReal) (ix2 r k) := by
  unfold iblk
  exact rows_of_features (V m c main_arg0) t p k r hr

/-- The neighbour weights' one block is the whole matrix. -/
theorem neighbour_weights_block (c : Dev nD) (t : Fin cfg0.N) (k q : Fin 128) :
    (iblk m c 2 t : Vec Ideal S128x128 .f32) (ix2 k q) = (V m c main_v23 : S128x128.Idx → EReal) (ix2 k q) := by
  unfold iblk
  exact all_of_neighbour_weights (V m c main_v23) t k q

/-- The bias row's one block is the whole row. -/
theorem bias_block (c : Dev nD) (t : Fin cfg0.N) (q : Fin 128) :
    (iblk m c 3 t : Vec Ideal S1x128 .f32) (ix2 (0 : Fin 1) q) = (V m c main_v25 : S1x128.Idx → EReal) (ix2 (0 : Fin 1) q) := by
  unfold iblk
  exact all_of_bias (V m c main_v25) t q

/-- The root weights' one block is the whole matrix. -/
theorem root_weights_block (c : Dev nD) (t : Fin cfg0.N) (k q : Fin 128) :
    (iblk m c 4 t : Vec Ideal S128x128 .f32) (ix2 k q) = (V m c main_v24 : S128x128.Idx → EReal) (ix2 k q) := by
  unfold iblk
  exact all_of_root_weights (V m c main_v24) t k q

/-- Entry `(p, q)` of what the body leaves at point `t` is entry `(5000·t + p, q)` of the layer's output. -/
theorem written_entry (c : Dev nD) (t : Fin cfg0.N) (p : Fin 5000) (q : Fin 128) (r : Fin 50000) (hr : r.val = 5000 * t.val + p.val) :
    k0_pay1 (F := Ideal) (iblk m c 0 t) (iblk m c 1 t) (iblk m c 2 t) (iblk m c 4 t) (iblk m c 3 t) (ix2 p q)
      = layerOutput m c (ix2 r q) :=
  BlockEntry.entry_of_blocks (V m c main_v22) (V m c main_arg0) (V m c main_v23) (V m c main_v24) (V m c main_v25)
    (iblk m c 0 t) (iblk m c 1 t) (iblk m c 2 t) (iblk m c 4 t) (iblk m c 3 t) p q r
    (fun k => means_block m c t p k r hr) (fun k => features_block m c t p k r hr)
    (fun k => neighbour_weights_block m c t k q) (fun k => root_weights_block m c t k q) (bias_block m c t q)

/-- WHAT POINT `t` WRITES BACK is block `t` of the layer's output of the whole arrays. -/
theorem written_block (c : Dev nD) (t : Fin cfg0.N) :
    (dats m 0 c).flushed 5 t = ((cfg0.win 5).blk t).view.read (Elt Ideal) (layerOutput m c) := by
  rw [Cert.KernelIdeal.Value.flushed5]
  unfold out0_5
  rw [View.canon_unit_zero zero_offsets]
  simp only [View.ld_unit_zero (S := S5000x128) zero_offsets, View.ld_unit_zero (S := S128x128) zero_offsets,
    View.ld_unit_zero (S := S1x128) zero_offsets]
  exact written_back_eq _ (layerOutput m c) t (fun p q r hr => written_entry m c t p q r hr)

/-- An index of the result array is in point `t`'s block iff each coordinate is in the block's range on its axis. -/
theorem mem_block (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v26).slice (win0_5.rect t)).set ↔ _
  rw [View.set_slice_whole, Rect.mem_set_unit]
  exact Iff.rfl

/-- Every row is in some point's block: row `r` in that of point `r / 5000`. -/
theorem rows_covered (i : S50000x128.Idx) :
    ∃ t : Fin cfg0.N, (cfg0.win 5).flush t = true ∧ i ∈ ((cfg0.win 5).blk t).view.set := by
  have hN : cfg0.N = 10 := N_0
  have h0 : (i 0).val < 50000 := idx2_lt0 i
  have h1 : (i 1).val < 128 := idx2_lt1 i
  obtain ⟨t, ht⟩ : ∃ t : Fin cfg0.N, t.val = (i 0).val / 5000 := ⟨⟨(i 0).val / 5000, by omega⟩, rfl⟩
  obtain ⟨-, -, -, -, -, -, -, -, -, -, e0, e1⟩ := block_positions t
  refine ⟨t, flush0_5 t, ?_⟩
  rw [mem_block]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 128 ≤ (i 1).val ∧ (i 1).val < win0_5.index t (1 : Fin 2) * 128 + 128
    omega

/-- THE RESULT ARRAY after the run is the layer's output of the arrays the region was entered with. -/
theorem result_array (c : Dev nD) : (dats m 0 c).arrAt 5 cfg0.N = layerOutput m c :=
  (dats m 0 c).arrAt_eq_of_cover 5 (layerOutput m c) (fun t _ => written_block m c t) rows_covered

/-- The run, read: the result at the layer's output, the five arguments unchanged. -/
theorem run : θ_run defs (onTc (τ := τ) (main (F := Ideal))) ⟨m, fun _ => 0, ρ⟩ fun r => ∀ c : Dev nD,
      r.2.mem ((c : Thread nD τ).loc main_v26) = layerOutput m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (result_array m c), (h c).2⟩)
    (Cert.KernelIdeal.Value.run_blocks m ρ)

end Cert.KernelIdeal.ResultArray

end
-- ==== Proof.ReferenceLayer.lean ====
/-
  The reference program's result as the layer's output.

  The reference computes the neighbourhood means `a` from the features and the edge list, transposes the neighbour
  weights, contracts, adds the bias broadcast over the rows, transposes the root weights, contracts the features with
  them and adds. Read at row `r`, column `j` its result is

      (∑ₖ a r k · wl k j  +  b j)  +  ∑ₖ x r k · wr k j ,

  each host contraction being, on the extended reals, the plain sum over the 128 input features and each host addition
  the sum of extended reals. That is the layer's output with the bias added first, which equals the layer's output with
  the bias added last because addition of extended reals is commutative and associative (`result_eq`). The means and the
  two transposed matrices stay the opaque stages they are: nothing here needs to look inside them.
-/
import proofs.«168548_j87703232184757_1_alg».proof.Proof.Gen.ReferenceIdeal.Read
import proofs.«168548_j87703232184757_1_alg».proof.Proof.SageCombine
import Idealize.ShloMosaic.Lib.ValueIdx
import Idealize.ShloMosaic.PureOps.Ideal.Laws

noncomputable section

open scoped BigOperators

namespace Cert.ReferenceIdeal.Layer

open Cert.ReferenceIdeal Cert.ReferenceIdeal.Read Idealize.ShloMosaic Idealize.ShloMosaic.ValueIdx Cert.Sage

/-- The contractions read the left operand at `(r, k)` … -/
theorem left_at (i : S50000x128.Idx) (k : Fin 128) : lidx_main_v24 i k = ix2 (i 0) k :=
  funext fun a => Fin.ext (by match a with | ⟨0, _⟩ => rfl | ⟨1, _⟩ => rfl)

/-- … and the right operand at `(k, j)`. -/
theorem right_at (i : S50000x128.Idx) (k : Fin 128) : ridx_main_v24 i k = ix2 k (i 1) :=
  funext fun a => Fin.ext (by match a with | ⟨0, _⟩ => rfl | ⟨1, _⟩ => rfl)

/-- The bias, broadcast first to one row and then down the rows, is read at the column. -/
theorem bias_at (i : S50000x128.Idx) : idx_main_v25 (idx_main_v26 i) = ix1 (i 1) :=
  funext fun a => Fin.ext (by match a with | ⟨0, _⟩ => rfl)

/-- A host contraction of a [50000, 128] array with a [128, 128] matrix, at an index, is the row-by-column sum. -/
theorem neighbour_term (x0 : (⟨S50000x128, .f32⟩ : BufTy).Contents (Elt Ideal)) (x1 : (⟨S2x800000, .i32⟩ : BufTy).Contents (Elt Ideal))
    (x2 : (⟨S128x128, .f32⟩ : BufTy).Contents (Elt Ideal)) (i : S50000x128.Idx) :
    val_main_v24 (F := Ideal) x0 x1 x2 i = rowDot (val_main_v22 (F := Ideal) x0 x1) (val_main_v23 (F := Ideal) x2) (i 0) (i 1) := by
  rw [val_main_v24_apply]
  exact Finset.sum_congr rfl fun k _ => by rw [left_at, right_at]; rfl

theorem root_term (x0 : (⟨S50000x128, .f32⟩ : BufTy).Contents (Elt Ideal)) (x4 : (⟨S128x128, .f32⟩ : BufTy).Contents (Elt Ideal))
    (i : S50000x128.Idx) :
    val_main_v29 (F := Ideal) x0 x4 i = rowDot x0 (val_main_v28 (F := Ideal) x4) (i 0) (i 1) := by
  rw [val_main_v29_apply]
  exact Finset.sum_congr rfl fun k _ => by
    rw [show lidx_main_v29 i k = ix2 (i 0) k from left_at i k, show ridx_main_v29 i k = ix2 k (i 1) from right_at i k]; rfl

/-- THE REFERENCE'S RESULT is the layer's output of its stages: the means, the features, the two transposed weight
    matrices and the bias. -/
theorem result_eq (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v30 (F := Ideal) x0 x1 x2 x3 x4
      = combine (val_main_v22 (F := Ideal) x0 x1) x0 (val_main_v23 (F := Ideal) x2) (val_main_v28 (F := Ideal) x4) x3 := by
  funext i
  rw [← combine_bias_first, val_main_v30_apply, val_main_v27_apply, neighbour_term, root_term, val_main_v26_apply,
    val_main_v25_apply, bias_at]
  rfl

end Cert.ReferenceIdeal.Layer

end
-- ==== Proof.Agreement.lean ====
/-
  The two programs compute one function of the arguments.

  Before the region is entered the kernel's program has computed, on the host, the neighbourhood means from the features
  and the edge list, the two weight matrices transposed, and the bias reshaped to one row. The reference program
  computes the means and the transposes by the SAME host operations, and broadcasts the bias where the kernel's program
  reshapes it. So the means and the transposed matrices are carried as the opaque stages they are — the gather, the two
  scatter-adds, the maximum and the quotient that make the means are never opened — and only the bias is read at an
  index: both the reshape and the broadcast put entry `j` of the bias vector at `(0, j)` of the row.

  With that, the layer's output of the arrays the region finds is the reference's result of the same arguments
  (`kernel_result_eq`): the reference's result is the layer's output of its stages, by the commutativity and
  associativity of addition of extended reals.
-/
import proofs.«168548_j87703232184757_1_alg».proof.Proof.ResultArray
import proofs.«168548_j87703232184757_1_alg».proof.Proof.ReferenceLayer
import proofs.«168548_j87703232184757_1_alg».proof.Proof.Gen.KernelIdeal.Frame
import proofs.«168548_j87703232184757_1_alg».proof.Proof.Gen.ReferenceIdeal.Read
import Idealize.ShloMosaic.Lib.StableHlo.Run
import Idealize.ShloMosaic.Lib.ValueIdx
import Idealize.ShloMosaic.Lib.ValueLayout

noncomputable section

namespace Cert.Agreement

open Idealize.ShloMosaic Idealize.ShloMosaic.TcCoe Idealize.SL.Sem Idealize.ShloMosaic.StableHlo
open Idealize.ShloMosaic.ValueIdx

variable (m : (ℓ : Loc Cert.KernelIdeal.nD Cert.KernelIdeal.τ Cert.KernelIdeal.sig) → Buf (Elt Ideal) ℓ)

/-- The region finds the neighbourhood means: the reference's stage of the features and the edge list. -/
theorem means_eq (c : Dev Cert.KernelIdeal.nD) :
    Cert.KernelIdeal.Gen.V m c Cert.KernelIdeal.main_v22
      = Cert.ReferenceIdeal.Read.val_main_v22 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1)) := by
  dsimp only [Cert.KernelIdeal.Gen.V, Cert.KernelIdeal.Gen.hostOps0]
  after_results_simp <;> rfl

/-- The region finds the neighbour weights transposed: the reference's stage. -/
theorem neighbour_weights_eq (c : Dev Cert.KernelIdeal.nD) :
    Cert.KernelIdeal.Gen.V m c Cert.KernelIdeal.main_v23
      = Cert.ReferenceIdeal.Read.val_main_v23 (F := Ideal)
          (m ((c : Thread Cert.KernelIdeal.nD Cert.KernelIdeal.τ).loc Cert.KernelIdeal.main_arg2)) := by
  dsimp only [Cert.KernelIdeal.Gen.V, Cert.KernelIdeal.Gen.hostOps0]
  after_results_simp <;> rfl

/-- The region finds the root weights transposed: the reference's stage. -/
theorem root_weights_eq (c : Dev Cert.KernelIdeal.nD) :
    Cert.KernelIdeal.Gen.V m c Cert.KernelIdeal.main_v24
      = Cert.ReferenceIdeal.Read.val_main_v28 (F := Ideal)
          (m ((c : Thread Cert.KernelIdeal.nD Cert.KernelIdeal.τ).loc Cert.KernelIdeal.main_arg4)) := by
  dsimp only [Cert.KernelIdeal.Gen.V, Cert.KernelIdeal.Gen.hostOps0]
  after_results_simp <;> rfl

/-- The region finds the bias vector reshaped to one row. -/
theorem bias_row_eq (c : Dev Cert.KernelIdeal.nD) :
    Cert.KernelIdeal.Gen.V m c Cert.KernelIdeal.main_v25
      = shapeCast Cert.KernelIdeal.S1x128 (m ((c : Thread Cert.KernelIdeal.nD Cert.KernelIdeal.τ).loc Cert.KernelIdeal.main_arg3))
          Cert.KernelIdeal.Facts₀.shapeCasts_S128_S1x128 := by
  dsimp only [Cert.KernelIdeal.Gen.V, Cert.KernelIdeal.Gen.hostOps0]
  after_results_simp <;> rfl

/-- Entry `(0, j)` of that row is entry `j` of the bias vector. -/
theorem bias_eq (c : Dev Cert.KernelIdeal.nD) :
    (fun j : (⟨1, ![128]⟩ : Shape).Idx => Cert.KernelIdeal.Gen.V m c Cert.KernelIdeal.main_v25 (ix2 (0 : Fin 1) (j 0)))
      = m ((c : Thread Cert.KernelIdeal.nD Cert.KernelIdeal.τ).loc Cert.KernelIdeal.main_arg3) := by
  rw [bias_row_eq m c]
  funext j
  exact (shapeCast_a_1a_apply _ _ (0 : Fin 1) (j 0)).trans (congrArg _ (eq_ix1 j).symm)

/-- THE KERNEL'S RESULT IS THE REFERENCE'S: the layer's output of the arrays the region finds is the reference's last stage
    of the same five arguments. -/
theorem kernel_result_eq (c : Dev Cert.KernelIdeal.nD) :
    Cert.KernelIdeal.ResultArray.layerOutput m c
      = Cert.ReferenceIdeal.Read.val_main_v30 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3))
          (m ((c : Thread Cert.KernelIdeal.nD Cert.KernelIdeal.τ).loc Cert.KernelIdeal.main_arg4)) := by
  rw [Cert.ReferenceIdeal.Layer.result_eq]
  show Cert.Sage.combine _ _ _ _ _ = _
  rw [means_eq m c, Cert.KernelIdeal.Gen.V_main_arg0 m c, neighbour_weights_eq m c, root_weights_eq m c, bias_eq m c]

end Cert.Agreement

end
-- ==== Proof.lean ====
/-
  A graph layer with mean aggregation: the kernel's program against its reference, over the extended reals.

  Both programs take node features `x` (50000 × 128), an edge list (2 × 800000), two 128 × 128 weight matrices and a bias
  vector. On the host both gather the source nodes' features along the edges, add them up per destination node, count the
  edges per destination, and divide the sums by the counts (at least one): the neighbourhood means `a`. The result is

      out r j  =  ∑ₖ a r k · Wₗ j k  +  ∑ₖ x r k · Wᵣ j k  +  b j .

  The kernel's program computes it in a grid of ten points, each producing 5000 rows from the same 5000 rows of `a` and
  `x` and the whole of the transposed weights and the bias; it adds the two products first and the bias last. The
  reference computes it on whole arrays, adding the bias to the first product before the second. A row of the output
  depends on the same row of `a` and `x` only, so the ten blocks are the blocks of one whole-array function
  (Proof/BlockEntry, Proof/BlockRows, Proof/ResultArray); at the ideal values a narrowing of the float format is the
  identity and a matrix product into zeros is the plain sum of products, as the host's contraction is; and the two orders
  of adding three terms agree because addition of extended reals is commutative and associative — no finiteness of the
  inputs is used (Proof/SageCombine, Proof/ReferenceLayer). The host operations that make the means are the same in both
  programs and are never opened (Proof/Agreement).

  The three frames: the kernel's program at the word level and at the ideal values runs to completion with its arguments
  unchanged, by its run through the grid; the reference, a straight line of host operations, likewise. The kernel's
  idealization rewrote no operation, so there is nothing to preserve.
-/
import proofs.«168548_j87703232184757_1_alg».proof.Defs
import proofs.«168548_j87703232184757_1_alg».proof.Proof.Gen.Kernel
import proofs.«168548_j87703232184757_1_alg».proof.Proof.Gen.Kernel.Skeleton
import proofs.«168548_j87703232184757_1_alg».proof.Proof.Gen.Kernel.Launch
import proofs.«168548_j87703232184757_1_alg».proof.Proof.Gen.Kernel.Points
import proofs.«168548_j87703232184757_1_alg».proof.Proof.Gen.Kernel.Frame
import proofs.«168548_j87703232184757_1_alg».proof.Proof.Gen.KernelIdeal
import proofs.«168548_j87703232184757_1_alg».proof.Proof.Gen.KernelIdeal.Skeleton
import proofs.«168548_j87703232184757_1_alg».proof.Proof.Gen.KernelIdeal.Launch
import proofs.«168548_j87703232184757_1_alg».proof.Proof.Gen.KernelIdeal.Points
import proofs.«168548_j87703232184757_1_alg».proof.Proof.Gen.KernelIdeal.Frame
import proofs.«168548_j87703232184757_1_alg».proof.Proof.Gen.ReferenceIdeal
import proofs.«168548_j87703232184757_1_alg».proof.Proof.Gen.Pre_finite_inputs
import proofs.«168548_j87703232184757_1_alg».proof.Proof.Gen.KernelIdeal.Value
import proofs.«168548_j87703232184757_1_alg».proof.Proof.Gen.ReferenceIdeal.Run
import proofs.«168548_j87703232184757_1_alg».proof.Proof.Gen.ReferenceIdeal.Read
import proofs.«168548_j87703232184757_1_alg».proof.Proof.ResultArray
import proofs.«168548_j87703232184757_1_alg».proof.Proof.ReferenceLayer
import proofs.«168548_j87703232184757_1_alg».proof.Proof.Agreement
import Idealize.ShloMosaic.Adequacy
import Idealize.ShloMosaic.Init

noncomputable section

namespace Cert.Proof

open Idealize.ShloMosaic Idealize.ShloMosaic.TcCoe Idealize.SL.Sem

/-- The kernel's program as printed runs to completion, its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the five arguments the two programs end with the same result: the kernel's result array
    is the layer's output of the arrays its region finds, the reference's is its last stage of the arguments, and the two
    are one function. -/
theorem algebraic : Cert.algebraic_KernelIdeal_ReferenceIdeal := by
  intro m ρ m' ρ' _ hagree
  refine ⟨_, Cert.KernelIdeal.ResultArray.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v30_eq _ _ _ _ _).trans (Cert.Agreement.kernel_result_eq m c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
